-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x1024x1024 : Shape := ⟨3, ![64, 1024, 1024]⟩
abbrev S64x1024 : Shape := ⟨2, ![64, 1024]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S64x512x1024 .f32) (main_arg1 : FVec F S64x1024x1024 .f32) (main_arg2 : FVec F S64x1024 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S64x1024x1024 .f32 := Host.absf main_arg1
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  main_v13
-- ==== Kernel.lean ====
abbrev S64x512x1024 : Shape := ⟨3, ![64, 512, 1024]⟩
abbrev S64x1024x1024 : Shape := ⟨3, ![64, 1024, 1024]⟩
abbrev S64x1024 : Shape := ⟨2, ![64, 1024]⟩
abbrev S64x1x1024 : Shape := ⟨3, ![64, 1, 1024]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S64x512x1024, .f32⟩
  | .hbm, ⟨1, _⟩ => ⟨S64x1024x1024, .f32⟩
  | .hbm, ⟨2, _⟩ => ⟨S64x1024, .f32⟩
  | .hbm, ⟨3, _⟩ => ⟨S64x1x1024, .f32⟩
  | .hbm, ⟨4, _⟩ => ⟨S64x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S64x1024_S64x1x1024_0_2 : S64x1024.BroadcastsInDim S64x1x1024 (![0, 2] : Fin 2 → Fin S64x1x1024.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S64x1x1024.size a
  hwx0_2 : ∀ i : grid0.Coords, EltTy.bits .f32 = 32 ∨ (Rect.block (s := S64x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x512x1024.size a
  hwx0_3 : ∀ i : grid0.Coords, EltTy.bits .f32 = 32 ∨ (Rect.block (s := S64x512x1024) S1x512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S64x1024x1024 : Shape := ⟨3, ![64, 1024, 1024]⟩
abbrev S64x1024 : Shape := ⟨2, ![64, 1024]⟩
abbrev S64x1x1024 : Shape := ⟨3, ![64, 1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x1024x1024, .f32⟩
  | .hbm, ⟨2, _⟩ => ⟨S64x1024, .f32⟩
  | .hbm, ⟨3, _⟩ => ⟨S64x512x1024, .f32⟩
  | .hbm, ⟨4, _⟩ => ⟨S64x1x1024, .f32⟩
  | .hbm, ⟨5, _⟩ => ⟨S64x512x1024, .f32⟩
  | .hbm, ⟨6, _⟩ => ⟨S64x512x1024, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S64x1024_S64x1x1024_0_2 : S64x1024.BroadcastsInDim S64x1x1024 (![0, 2] : Fin 2 → Fin S64x1x1024.rank)
  bcast_S64x1x1024_S64x512x1024_0_1_2 : S64x1x1024.BroadcastsInDim S64x512x1024 (![0, 1, 2] : Fin 3 → Fin S64x512x1024.rank)
  dot_S64x512x1024_S64x1024x1024_S64x512x1024_2_2_1_1_0_0_wf : DotDims.WF S64x512x1024 S64x1024x1024 S64x512x1024 [2] [2] [1] [1] [0] [0]

variable [Facts₀]

def dot_S64x512x1024_S64x1024x1024_S64x512x1024_2_2_1_1_0_0 : DotDims S64x512x1024 S64x1024x1024 S64x512x1024 where
  lhsContracting := [2]
  rhsContracting := [2]
  lhsNonContracting := [1]
  rhsNonContracting := [1]
  lhsBatch := [0]
  rhsBatch := [0]
  wf := dot_S64x512x1024_S64x1024x1024_S64x512x1024_2_2_1_1_0_0_wf

class Facts : Prop extends Facts₀ where

variable [Facts]
-- ==== Proof.LibPlainDot.lean ====
/-
  Indices of a plain matrix product, built from an output index and a shared coordinate.

  For an M×K matrix times a K×N matrix, entry (r, c) of the product is the sum over k of l (r, k) · r (k, c).
  `lhsAt i k` is the left operand's index (i 0, k), `rhsAt i k` the right operand's (k, i 1), and `rowAt i` is
  (0, i 1): where a one-row matrix added to every row is read.
-/
import Idealize.ShloMosaic.Lib.ValueIdx

namespace Idealize.ShloMosaic.PlainDot

open Idealize.ShloMosaic

/-- The left operand's index for output index `i` and shared coordinate `k`: (i 0, k). -/
abbrev lhsAt {M K N : Nat} (i : (⟨2, ![M, N]⟩ : Shape).Idx) (k : Fin K) : (⟨2, ![M, K]⟩ : Shape).Idx :=
  fun a => match a with
  | ⟨0, _⟩ => ⟨(i 0).val, (i 0).isLt⟩
  | ⟨1, _⟩ => ⟨k.val, k.isLt⟩

/-- The right operand's index: (k, i 1). -/
abbrev rhsAt {M K N : Nat} (i : (⟨2, ![M, N]⟩ : Shape).Idx) (k : Fin K) : (⟨2, ![K, N]⟩ : Shape).Idx :=
  fun a => match a with
  | ⟨0, _⟩ => ⟨k.val, k.isLt⟩
  | ⟨1, _⟩ => ⟨(i 1).val, (i 1).isLt⟩

/-- Column `i 1` of a one-row matrix: (0, i 1). -/
abbrev rowAt {M N : Nat} (i : (⟨2, ![M, N]⟩ : Shape).Idx) : (⟨2, ![1, N]⟩ : Shape).Idx :=
  fun a => match a with
  | ⟨0, _⟩ => ⟨0, Nat.one_pos⟩
  | ⟨1, _⟩ => ⟨(i 1).val, (i 1).isLt⟩

end Idealize.ShloMosaic.PlainDot
-- ==== Proof.LibSqDist.lean ====
/-
  Squared Euclidean distances between the rows of two matrices, entry by entry.

  For x with M rows and w with N rows, each of K entries, the expansion ‖a − b‖² = ‖a‖² − 2⟨a, b⟩ + ‖b‖² gives at (r, p)
      (∑ₖ x(r,k)·x(r,k)  −  c · ∑ₖ x(r,k)·w(p,k))  +  ∑ₖ w(p,k)·w(p,k),
  with the factor c of the cross term a parameter. `sqDist` is that function, in this grouping. Entry (r, p) reads row r
  of x and row p of w and nothing else, so the entries over a block of rows of x are the entries of the block
  (`sqDist_of_rows`). The cross term is a matrix product that contracts the LAST axis of both operands; `sum_contr_rows_eq`
  reads such a product's contraction as the sum over the shared coordinate k of l (r, k) · r (p, k), whatever record spells
  the contraction, provided the record's operand indices have those coordinates.
-/
import Idealize.ShloMosaic.Lib.ValueIdx
import Idealize.ShloMosaic.PureOps.Ideal.Laws
import proofs.«118806_j9715216023980_2_alg».proof.Proof.LibPlainDot

noncomputable section

open scoped BigOperators

namespace Idealize.ShloMosaic.PlainDot

open Idealize.ShloMosaic Idealize.ShloMosaic.ValueIdx

/-- The index (i 1, k): row `i 1` of an N×K matrix at the shared coordinate `k`. -/
abbrev rhsRowAt {M K N : Nat} (i : (⟨2, ![M, N]⟩ : Shape).Idx) (k : Fin K) : (⟨2, ![N, K]⟩ : Shape).Idx :=
  fun a => match a with
  | ⟨0, _⟩ => ⟨(i 1).val, (i 1).isLt⟩
  | ⟨1, _⟩ => ⟨k.val, k.isLt⟩

/-- The sum a product of an M×K by an N×K matrix contracts over (the last axis of both), re-indexed by the shared
    coordinate: for a record `D` whose one contracted axis has extent `K` and whose operand indices at output index `i`
    and contraction index `q` are (i 0, q) and (i 1, q). -/
theorem sum_contr_rows_eq {M K N : ℕ} (D : DotDims ⟨2, ![M, K]⟩ ⟨2, ![N, K]⟩ ⟨2, ![M, N]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (l : (⟨2, ![M, K]⟩ : Shape).Idx → EReal) (r : (⟨2, ![N, K]⟩ : Shape).Idx → EReal) (i : (⟨2, ![M, N]⟩ : Shape).Idx) :
    ∑ q : D.contr.Idx, l (D.lhsIdx i q) * r (D.rhsIdx i q) = ∑ k : Fin K, l (lhsAt i k) * r (rhsRowAt i k) := by
  rw [← Equiv.sum_comp (contrEquiv1 D K hr hs).symm]
  refine Finset.sum_congr rfl fun k _ => ?_
  have hk := contrEquiv1_symm_val D K hr hs k
  have el : D.lhsIdx i ((contrEquiv1 D K hr hs).symm k) = lhsAt i k := funext fun a => Fin.ext (by
    match a with
    | ⟨0, _⟩ => exact hl0 _ _
    | ⟨1, _⟩ => exact (hl1 _ _).trans hk)
  have er : D.rhsIdx i ((contrEquiv1 D K hr hs).symm k) = rhsRowAt i k := funext fun a => Fin.ext (by
    match a with
    | ⟨0, _⟩ => exact hr0 _ _
    | ⟨1, _⟩ => exact (hr1 _ _).trans hk)
  rw [el, er]

/-- The squared distances between the rows of `x` and the rows of `w`, by the expanded square: at (r, p) the squared norm
    of row r of `x`, minus `c` times the inner product of the two rows, plus the squared norm of row p of `w`. -/
def sqDist {M N K : ℕ} (c : EReal) (x : (⟨2, ![M, K]⟩ : Shape).Idx → EReal) (w : (⟨2, ![N, K]⟩ : Shape).Idx → EReal) :
    (⟨2, ![M, N]⟩ : Shape).Idx → EReal :=
  fun i => ((∑ k : Fin K, x (lhsAt i k) * x (lhsAt i k)) - c * ∑ k : Fin K, x (lhsAt i k) * w (rhsRowAt i k))
    + ∑ k : Fin K, w (rhsRowAt i k) * w (rhsRowAt i k)

/-- Entry `y` of the distances between the rows of `xb` and of `wb` is entry `i` of the distances between the rows of `x`
    and of `w` when row `y 0` of `xb` is row `i 0` of `x` and row `y 1` of `wb` is row `i 1` of `w`: an entry reads those two
    rows and nothing else. -/
theorem sqDist_of_rows {M B N C K : ℕ} (c : EReal) (x : (⟨2, ![M, K]⟩ : Shape).Idx → EReal)
    (xb : (⟨2, ![B, K]⟩ : Shape).Idx → EReal) (w : (⟨2, ![N, K]⟩ : Shape).Idx → EReal)
    (wb : (⟨2, ![C, K]⟩ : Shape).Idx → EReal) (i : (⟨2, ![M, N]⟩ : Shape).Idx) (y : (⟨2, ![B, C]⟩ : Shape).Idx)
    (hx : ∀ k : Fin K, xb (lhsAt y k) = x (lhsAt i k)) (hw : ∀ k : Fin K, wb (rhsRowAt y k) = w (rhsRowAt i k)) :
    sqDist c xb wb y = sqDist c x w i := by
  unfold sqDist
  simp only [hx, hw]

end Idealize.ShloMosaic.PlainDot

end
-- ==== Proof.BlockLayer.lean ====
/-
  One group's block of the layer, entry by entry.

  At a grid point the kernel holds one group: a 1×512×1024 block of x, a 1×1024×1024 block of W and a 1×1×1024 block of
  the biases. It drops the unit axes, multiplies the 512×1024 matrix by the 1024×1024 matrix contracting the LAST axis of
  both (so entry (r, o) pairs row r of the first with row o of the second) into a zero accumulator, adds the one bias
  row to every row, and restores the unit axis. The two roundings to a narrower float format are the identity on
  exact values. So entry (u, r, o) of the stored block is
      (∑ₖ xb (0, r, k) · wb (0, o, k)) + bb (0, 0, o).
-/
import proofs.«118806_j9715216023980_2_alg».proof.Proof.Gen.KernelIdeal.Skeleton
import proofs.«118806_j9715216023980_2_alg».proof.Proof.LibSqDist
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen
open Idealize.ShloMosaic Idealize.ShloMosaic.ValueIdx Idealize.ShloMosaic.PlainDot

/-- The product's dimension record: both operands contract their axis 1 and keep their axis 0. -/
abbrev rowsDot : DotDims S512x1024 S1024x1024 S512x1024 := dot_S512x1024_S1024x1024_S512x1024_1_1_0_0_n_n

theorem lhs_row (i : S512x1024.Idx) (q : rowsDot.contr.Idx) : (rowsDot.lhsIdx i q 0).val = (i 0).val := by
  unfold DotDims.lhsIdx
  rw [dif_neg (show ¬(0 : Fin S512x1024.rank) ∈ rowsDot.lhsBatch by decide),
    dif_pos (show (0 : Fin S512x1024.rank) ∈ rowsDot.lhsNonContracting by decide)]
  rfl

theorem lhs_shared (i : S512x1024.Idx) (q : rowsDot.contr.Idx) : (rowsDot.lhsIdx i q 1).val = (q ⟨0, by decide⟩).val :=
  rowsDot.lhsIdx_val_of_single rfl i q

theorem rhs_row (i : S512x1024.Idx) (q : rowsDot.contr.Idx) : (rowsDot.rhsIdx i q 0).val = (i 1).val := by
  unfold DotDims.rhsIdx
  rw [dif_neg (show ¬(0 : Fin S1024x1024.rank) ∈ rowsDot.rhsBatch by decide),
    dif_pos (show (0 : Fin S1024x1024.rank) ∈ rowsDot.rhsNonContracting by decide)]
  rfl

theorem rhs_shared (i : S512x1024.Idx) (q : rowsDot.contr.Idx) : (rowsDot.rhsIdx i q 1).val = (q ⟨0, by decide⟩).val :=
  rowsDot.rhsIdx_val_of_single rfl i q

/-- The product into a zero accumulator at (r, o): row r of the left matrix against row o of the right. -/
theorem rows_product (l : FVec Ideal S512x1024 .bf16) (w : FVec Ideal S1024x1024 .bf16) (r : Fin 512) (o : Fin 1024) :
    matmul rowsDot none l w (constant (F := Ideal) S512x1024 .f32 0x00000000#32) (ix2 r o)
      = ∑ k : Fin 1024, l (ix2 r k) * w (ix2 o k) := by
  refine (Ideal.matmul_constant_zero_apply rowsDot none l w (ix2 r o)).trans ?_
  refine (sum_contr_rows_eq rowsDot rfl rfl lhs_row lhs_shared rhs_row rhs_shared l w (ix2 r o)).trans ?_
  refine Finset.sum_congr rfl fun k _ => ?_
  have el : lhsAt (K := 1024) (ix2 r o : S512x1024.Idx) k = ix2 r k := funext fun a => by
    match a with
    | ⟨0, _⟩ => rfl
    | ⟨1, _⟩ => rfl
  have er : rhsRowAt (K := 1024) (ix2 r o : S512x1024.Idx) k = ix2 o k := funext fun a => by
    match a with
    | ⟨0, _⟩ => rfl
    | ⟨1, _⟩ => rfl
  rw [el, er]

/-- Entry (u, r, o) of the block the body stores, from the three blocks it loads. -/
theorem stored_apply (xb : Vec Ideal S1x512x1024 .f32) (wb : Vec Ideal S1x1024x1024 .f32) (bb : Vec Ideal S1x1x1024 .f32)
    (u : Fin 1) (r : Fin 512) (o : Fin 1024) :
    k0_pay1 (F := Ideal) xb wb bb (ix3 u r o)
      = (∑ k : Fin 1024, xb (ix3 (0 : Fin 1) r k) * wb (ix3 (0 : Fin 1) o k)) + bb (ix3 (0 : Fin 1) (0 : Fin 1) o) := by
  unfold k0_pay1
  refine (shapeCast_ab_1ab_apply _ _ u r o).trans ?_
  refine (addf_apply _ _ _).trans ?_
  refine congrArg₂ (· + ·) ?_ ?_
  · refine (rows_product _ _ r o).trans ?_
    refine Finset.sum_congr rfl fun k _ => ?_
    exact congrArg₂ (· * ·) (shapeCast_1ab_ab_apply xb _ r k) (shapeCast_1ab_ab_apply wb _ o k)
  · refine (broadcastTo_1b_ab_apply _ _ r o).trans ?_
    exact shapeCast_1ab_ab_apply bb _ (0 : Fin 1) o

end Cert.KernelIdeal.BlockValue

end
-- ==== Proof.GroupedLinear.lean ====
/-
  One linear layer per group, entry by entry.

  There are 64 groups. Group g has an input x[g] with 512 rows of 1024 entries, a weight matrix W[g] with 1024 rows of
  1024 entries, and a bias b[g] of 1024 entries. The layer's output at (g, t, o) is the inner product of row t of x[g]
  with row o of W[g], plus b[g, o]:
      out (g, t, o) = (∑ₖ x (g, t, k) · W (g, o, k)) + b (g, o).
  `groupedLinear` is that function of the three whole arrays, over the extended reals. An entry reads row (g, t) of x,
  row (g, o) of W and entry (g, o) of b and nothing else, so it can be computed from any arrays that hold those rows
  (`groupedLinear_of_rows`): this is what lets a block of one group stand for the whole arrays. The bias travels as a
  64×1×1024 array, each group's bias one row; `keepdims_apply` reads that array at an index.
-/
import Idealize.ShloMosaic.Lib.ValueIdx
import Idealize.ShloMosaic.Lib.Pipeline.Value
import Idealize.ShloMosaic.PureOps.Ideal

noncomputable section

open scoped BigOperators

namespace Cert.GroupedLinear

open Idealize.ShloMosaic Idealize.ShloMosaic.ValueIdx

/-- The inputs' shape: 64 groups of 512 rows of 1024 entries; also the outputs' (1024 output features). -/
abbrev SX : Shape := ⟨3, ![64, 512, 1024]⟩
/-- The weights' shape: 64 groups of 1024 rows (one per output feature) of 1024 entries. -/
abbrev SW : Shape := ⟨3, ![64, 1024, 1024]⟩
/-- The biases' shape: 64 groups of 1024 entries. -/
abbrev SB : Shape := ⟨2, ![64, 1024]⟩
/-- The biases with a unit axis between group and feature. -/
abbrev SB1 : Shape := ⟨3, ![64, 1, 1024]⟩

/-- Entry k of the input row that output index i = (g, t, o) reads: (g, t, k). -/
abbrev xAt (i : SX.Idx) (k : Fin 1024) : SX.Idx := fun a => match a with
  | ⟨0, _⟩ => ⟨(i 0).val, (i 0).isLt⟩
  | ⟨1, _⟩ => ⟨(i 1).val, (i 1).isLt⟩
  | ⟨2, _⟩ => ⟨k.val, k.isLt⟩

/-- Entry k of the weight row that output index i = (g, t, o) reads: (g, o, k). -/
abbrev wAt (i : SX.Idx) (k : Fin 1024) : SW.Idx := fun a => match a with
  | ⟨0, _⟩ => ⟨(i 0).val, (i 0).isLt⟩
  | ⟨1, _⟩ => ⟨(i 2).val, (i 2).isLt⟩
  | ⟨2, _⟩ => ⟨k.val, k.isLt⟩

/-- The bias entry that output index i = (g, t, o) reads: (g, o). -/
abbrev bAt (i : SX.Idx) : SB.Idx := fun a => match a with
  | ⟨0, _⟩ => ⟨(i 0).val, (i 0).isLt⟩
  | ⟨1, _⟩ => ⟨(i 2).val, (i 2).isLt⟩

/-- The grouped linear layer: at (g, t, o), row t of x[g] against row o of W[g], plus b[g, o]. -/
def groupedLinear (x : SX.Idx → EReal) (W : SW.Idx → EReal) (b : SB.Idx → EReal) : SX.Idx → EReal :=
  fun i => (∑ k : Fin 1024, x (xAt i k) * W (wAt i k)) + b (bAt i)

/-- An entry of the layer from any three sources that hold the input row, the weight row and the bias entry it reads. -/
theorem groupedLinear_of_rows (x : SX.Idx → EReal) (W : SW.Idx → EReal) (b : SB.Idx → EReal) (i : SX.Idx)
    (xr wr : Fin 1024 → EReal) (bo : EReal)
    (hx : ∀ k, xr k = x (xAt i k)) (hw : ∀ k, wr k = W (wAt i k)) (hb : bo = b (bAt i)) :
    (∑ k : Fin 1024, xr k * wr k) + bo = groupedLinear x W b i := by
  unfold groupedLinear
  rw [hb]
  exact congrArg (· + b (bAt i)) (Finset.sum_congr rfl fun k _ => by rw [hx k, hw k])

/-- Entry (g, o) of the biases as index (g, u, o) of the 64×1×1024 array reads it. -/
abbrev dropUnit (j : SB1.Idx) : SB.Idx := fun a => match a with
  | ⟨0, _⟩ => ⟨(j 0).val, (j 0).isLt⟩
  | ⟨1, _⟩ => ⟨(j 2).val, (j 2).isLt⟩

/-- The biases placed on axes 0 and 2 of a 64×1×1024 array: index (g, u, o) holds b (g, o). -/
theorem keepdims_apply {α : Type} (h : SB.BroadcastsInDim SB1 (![0, 2] : Fin 2 → Fin SB1.rank)) (v : SB.Idx → α) (j : SB1.Idx) :
    broadcastInDim SB1 ![0, 2] h v j = v (dropUnit j) := by
  refine broadcastInDim_apply _ h v j (dropUnit j) fun ax => ?_
  match ax with
  | ⟨0, _⟩ =>
    show (j 0).val = if (64 : Nat) = 1 then 0 else (j 0).val
    rw [if_neg (by decide)]
  | ⟨1, _⟩ =>
    show (j 2).val = if (1024 : Nat) = 1 then 0 else (j 2).val
    rw [if_neg (by decide)]

end Cert.GroupedLinear

end
-- ==== Proof.LayerArray.lean ====
/-
  The kernel's output array is the grouped linear layer.

  The grid has 64 points, one per group. At point t every window's block is group t of its array: the index maps send t
  to block (t, 0, 0), and a block spans one group and every row and entry of it. So entry (u, r, o) of the block the body
  stores at point t is entry (t, r, o) of the layer: the block of x it reads is x[t], the block of W is W[t], and the
  block of the biases is row t of the 64×1×1024 array that holds b (g, o) at (g, 0, o). The 64 output blocks tile the
  output array, so after the run the array holds the layer everywhere.
-/
import proofs.«118806_j9715216023980_2_alg».proof.Proof.Gen.KernelIdeal.Value
import proofs.«118806_j9715216023980_2_alg».proof.Proof.BlockLayer
import proofs.«118806_j9715216023980_2_alg».proof.Proof.GroupedLinear
import Idealize.ShloMosaic.Lib.StableHlo.Run

set_option maxRecDepth 16384

noncomputable section

namespace Cert.KernelIdeal.ArrayValue

open Cert.KernelIdeal Cert.KernelIdeal.Gen Cert.KernelIdeal.Value Cert.KernelIdeal.BlockValue Cert.GroupedLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The layer of the three argument arrays as launched, on core c. -/
abbrev layer (c : Dev nD) : S64x512x1024.Idx → EReal :=
  groupedLinear (m ((c : Thread nD τ).loc main_arg0)) (m ((c : Thread nD τ).loc main_arg1)) (m ((c : Thread nD τ).loc main_arg2))

/-- The four index maps, decided over the 64 grid points: each sends point t to block (t, 0, 0). -/
theorem block_index : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 :=
  (by decide +kernel : ∀ t : Fin grid0.N, _)

/-- Every group is some point's block. -/
theorem point_of_group : ∀ g : Fin 64, ∃ t : Fin cfg0.N, win0_3.index t = ![g.val, 0, 0] :=
  (by decide +kernel : ∀ g : Fin 64, ∃ t : Fin grid0.N, win0_3.index t = ![g.val, 0, 0])

/-- The biases as the region finds them: the host has placed b (g, o) at (g, 0, o) of a 64×1×1024 array. -/
theorem bias_array (c : Dev nD) :
    (V m c main_v0 : S64x1x1024.Idx → EReal)
      = broadcastInDim S64x1x1024 ![0, 2] bcast_S64x1024_S64x1x1024_0_2 (m ((c : Thread nD τ).loc main_arg2)) := by
  dsimp only [Gen.V, Gen.hostOps0]
  after_results

/-- What point t writes back is block t of the layer. -/
theorem flushed_eq (c : Dev nD) (t : Fin cfg0.N) :
    (dats m 0 c).flushed 3 t = ((cfg0.win 3).blk t).view.read (Elt Ideal) (layer m c) := by
  rw [flushed3]
  unfold out0_3
  rw [View.canon_unit_zero zero_offsets]
  simp only [View.ld_unit_zero (S := S1x512x1024) zero_offsets, View.ld_unit_zero (S := S1x1024x1024) zero_offsets,
    View.ld_unit_zero (S := S1x1x1024) zero_offsets]
  obtain ⟨e00, e01, e02, e10, e11, e12, e20, e21, e22, e31, e32⟩ := block_index t
  funext j
  have hj : (j : S1x512x1024.Idx) = ix3 (j 0) (j 1) (j 2) := eq_ix3 (j : S1x512x1024.Idx)
  have hu : ((j : S1x512x1024.Idx) 0).val < 1 := (j 0).isLt
  have hr : ((j : S1x512x1024.Idx) 1).val < 512 := (j 1).isLt
  have ho : ((j : S1x512x1024.Idx) 2).val < 1024 := (j 2).isLt
  show k0_pay1 (iblk m c 0 t) (iblk m c 1 t) (iblk m c 2 t) j = layer m c (((cfg0.win 3).blk t).view.emb j)
  rw [hj]
  refine (stored_apply (iblk m c 0 t) (iblk m c 1 t) (iblk m c 2 t) (j 0) (j 1) (j 2)).trans ?_
  refine groupedLinear_of_rows _ _ _ _ _ _ _ (fun k => ?_) (fun k => ?_) ?_
  · show V m c main_arg0 (((cfg0.win 0).blk t).view.emb (ix3 (0 : Fin 1) (j 1) k)) = _
    rw [V_main_arg0]
    refine congrArg (m ((c : Thread nD τ).loc main_arg0)) ?_
    funext a; apply Fin.ext
    match a with
    | ⟨0, _⟩ => show win0_0.index t (0 : Fin 3) * 1 + 1 * 0 = win0_3.index t (0 : Fin 3) * 1 + 1 * (j 0).val; omega
    | ⟨1, _⟩ => show win0_0.index t (1 : Fin 3) * 512 + 1 * (j 1).val = win0_3.index t (1 : Fin 3) * 512 + 1 * (j 1).val; omega
    | ⟨2, _⟩ => show win0_0.index t (2 : Fin 3) * 1024 + 1 * k.val = k.val; omega
  · show V m c main_arg1 (((cfg0.win 1).blk t).view.emb (ix3 (0 : Fin 1) (j 2) k)) = _
    rw [V_main_arg1]
    refine congrArg (m ((c : Thread nD τ).loc main_arg1)) ?_
    funext a; apply Fin.ext
    match a with
    | ⟨0, _⟩ => show win0_1.index t (0 : Fin 3) * 1 + 1 * 0 = win0_3.index t (0 : Fin 3) * 1 + 1 * (j 0).val; omega
    | ⟨1, _⟩ => show win0_1.index t (1 : Fin 3) * 1024 + 1 * (j 2).val = win0_3.index t (2 : Fin 3) * 1024 + 1 * (j 2).val; omega
    | ⟨2, _⟩ => show win0_1.index t (2 : Fin 3) * 1024 + 1 * k.val = k.val; omega
  · show V m c main_v0 (((cfg0.win 2).blk t).view.emb (ix3 (0 : Fin 1) (0 : Fin 1) (j 2))) = _
    rw [bias_array, keepdims_apply]
    refine congrArg (m ((c : Thread nD τ).loc main_arg2)) ?_
    funext a; apply Fin.ext
    match a with
    | ⟨0, _⟩ => show win0_2.index t (0 : Fin 3) * 1 + 1 * 0 = win0_3.index t (0 : Fin 3) * 1 + 1 * (j 0).val; omega
    | ⟨1, _⟩ => show win0_2.index t (2 : Fin 3) * 1024 + 1 * (j 2).val = win0_3.index t (2 : Fin 3) * 1024 + 1 * (j 2).val; omega

/-- An index of the output array is in point t's block iff each coordinate is in the block's range on its axis. -/
theorem mem_block (t : Fin cfg0.N) (i : S64x512x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v1).slice (win0_3.rect t)).set ↔ _
  rw [View.set_slice_whole, Rect.mem_set_unit]
  exact Iff.rfl

/-- Every index of the output array is in the block of its group's point. -/
theorem covered (i : S64x512x1024.Idx) : ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 1024 := (i 2).isLt
  obtain ⟨t, ht⟩ := point_of_group ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The output array after the run is the layer. -/
theorem final (c : Dev nD) : (dats m 0 c).arrAt 3 cfg0.N = layer m c :=
  (dats m 0 c).arrAt_eq_of_cover 3 (layer m c) (fun t _ => flushed_eq m c t) covered

/-- The kernel's run: it ends with the output array at the layer of the argument arrays, and those unchanged. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.ReferenceLayer.lean ====
/-
  The reference computes the grouped linear layer.

  Its four operations are a product of x and W that keeps the group axis and contracts the last axis of both, the
  biases given a unit axis, that array repeated along the 512 rows, and the sum of the two. Read at an output index
  (g, t, o) these are the sum over k of x (g, t, k) · W (g, o, k), the bias entry (g, o) through two re-indexings, and
  their sum: `groupedLinear` at that index.
-/
import proofs.«118806_j9715216023980_2_alg».proof.Proof.Gen.ReferenceIdeal.Read
import proofs.«118806_j9715216023980_2_alg».proof.Proof.GroupedLinear

noncomputable section

open scoped BigOperators

namespace Cert.ReferenceIdeal.RefValue

open Cert.ReferenceIdeal Cert.ReferenceIdeal.Gen Cert.ReferenceIdeal.Read Cert.GroupedLinear
open Idealize.ShloMosaic Idealize.ShloMosaic.ValueIdx

/-- The reference's result term, at the exact reals, is the grouped linear layer of its three arguments. -/
theorem result_eq (x : (⟨S64x512x1024, .f32⟩ : BufTy).Contents (Elt Ideal)) (W : (⟨S64x1024x1024, .f32⟩ : BufTy).Contents (Elt Ideal))
    (b : (⟨S64x1024, .f32⟩ : BufTy).Contents (Elt Ideal)) :
    val_main_v3 (F := Ideal) x W b = groupedLinear x W b := by
  funext i
  rw [val_main_v3_apply, val_main_v0_apply, val_main_v2_apply, val_main_v1_apply]
  exact groupedLinear_of_rows x W b i _ _ _ (fun _ => rfl) (fun _ => rfl) rfl

end Cert.ReferenceIdeal.RefValue

end
-- ==== Proof.lean ====
/-
  A grouped linear layer computed one group per grid point equals the layer computed by one batched product.

  The arguments are x (64 groups of 512 rows of 1024 entries), W (64 groups of 1024 rows of 1024 entries) and b (64 groups
  of 1024 entries). The layer is
      out (g, t, o) = (∑ₖ x (g, t, k) · W (g, o, k)) + b (g, o)
  (Proof/GroupedLinear.lean, `groupedLinear`).
  The reference forms the product of x and W that keeps the group axis and contracts the last axis of both, and adds the
  biases repeated along the rows: read at an index, that is the layer (Proof/ReferenceLayer.lean).
  The kernel visits the 64 groups in turn. At group g it multiplies the 512×1024 block x[g] by the 1024×1024 block W[g],
  contracting the last axis of both into a zero accumulator, and adds the bias row b[g]; on exact values its two roundings
  to a narrower format change nothing, so the stored block is the layer's entries of group g (Proof/BlockLayer.lean), and
  the 64 blocks tile the output array (Proof/LayerArray.lean).
  Both sides are the same sum of products plus the same bias entry, term by term: no law of arithmetic is needed to join
  them, so the finiteness of the inputs is never used. The idealized kernel is the kernel's own text read over exact
  values: nothing was rewritten, and there is nothing to preserve.
-/
import proofs.«118806_j9715216023980_2_alg».proof.Defs
import proofs.«118806_j9715216023980_2_alg».proof.Proof.Gen.Kernel
import proofs.«118806_j9715216023980_2_alg».proof.Proof.Gen.Kernel.Skeleton
import proofs.«118806_j9715216023980_2_alg».proof.Proof.Gen.Kernel.Launch
import proofs.«118806_j9715216023980_2_alg».proof.Proof.Gen.Kernel.Points
import proofs.«118806_j9715216023980_2_alg».proof.Proof.Gen.Kernel.Frame
import proofs.«118806_j9715216023980_2_alg».proof.Proof.Gen.KernelIdeal
import proofs.«118806_j9715216023980_2_alg».proof.Proof.Gen.KernelIdeal.Skeleton
import proofs.«118806_j9715216023980_2_alg».proof.Proof.Gen.KernelIdeal.Launch
import proofs.«118806_j9715216023980_2_alg».proof.Proof.Gen.KernelIdeal.Points
import proofs.«118806_j9715216023980_2_alg».proof.Proof.Gen.KernelIdeal.Frame
import proofs.«118806_j9715216023980_2_alg».proof.Proof.Gen.ReferenceIdeal
import proofs.«118806_j9715216023980_2_alg».proof.Proof.Gen.Pre_finite_inputs
import proofs.«118806_j9715216023980_2_alg».proof.Proof.Gen.KernelIdeal.Value
import proofs.«118806_j9715216023980_2_alg».proof.Proof.Gen.ReferenceIdeal.Run
import proofs.«118806_j9715216023980_2_alg».proof.Proof.Gen.ReferenceIdeal.Read
import proofs.«118806_j9715216023980_2_alg».proof.Proof.LayerArray
import proofs.«118806_j9715216023980_2_alg».proof.Proof.ReferenceLayer
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over exact values. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over exact values. -/
theorem preserves : Cert.preserves_Kernel_KernelIdeal := trivial

/-- From memories that agree on x, W and b, the kernel's output array and the reference's result are both the grouped
    linear layer of those arguments. -/
theorem algebraic : Cert.algebraic_KernelIdeal_ReferenceIdeal := by
  intro m ρ m' ρ' _ hagree
  refine ⟨fun c => Cert.KernelIdeal.ArrayValue.layer m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v3_eq _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
